-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10240 : Shape := ⟨2, ![4096, 10240]⟩
abbrev S4096x10240x4 : Shape := ⟨3, ![4096, 10240, 4]⟩
abbrev S10240x4 : Shape := ⟨2, ![10240, 4]⟩
abbrev S_ : Shape := ⟨0, ![]⟩

class Facts : Prop where
  bitsLt_bf16_f32 : FTy.bits .bf16 < FTy.bits .f32
  bcast_S_S4096x10240 : S_.BroadcastsInDim S4096x10240 (![] : Fin 0 → Fin S4096x10240.rank)
  reducesTo_S4096x10240_S_d0_1 : S4096x10240.ReducesTo [0, 1] S_
  h_S_ : 0 < S_.numel
  bcast_S_S4096x10240x4 : S_.BroadcastsInDim S4096x10240x4 (![] : Fin 0 → Fin S4096x10240x4.rank)
  reducesTo_S4096x10240x4_S_d0_1_2 : S4096x10240x4.ReducesTo [0, 1, 2] S_
  bcast_S_S10240x4 : S_.BroadcastsInDim S10240x4 (![] : Fin 0 → Fin S10240x4.rank)
  reducesTo_S10240x4_S_d0_1 : S10240x4.ReducesTo [0, 1] S_

variable [Facts]

def fn {F : FTy → Type} [FloatOps F] (main_arg0 : FVec F S4096x10240 .bf16) (main_arg1 : FVec F S4096x10240x4 .bf16) (main_arg2 : FVec F S10240x4 .bf16) : IVec S_ 1 :=
  let main_v0 : FVec F S4096x10240 .f32 := (extf .f32 · bitsLt_bf16_f32) main_arg0
  let main_v1 : FVec F S4096x10240 .f32 := Host.absf main_v0
  let main_cst : FVec F S_ .f32 := constant S_ .f32 0x7F800000#32
  let main_v2 : FVec F S4096x10240 .f32 := broadcastInDim S4096x10240 ![] bcast_S_S4096x10240 main_cst
  let main_v3 : IVec S4096x10240 1 := cmpf .olt main_v1 main_v2
  let main_c : IVec S_ 1 := constantI S_ 1 1#1
  let main_v4 : IVec S_ 1 := (fun x v => Host.reduce IntOp.andi x v reducesTo_S4096x10240_S_d0_1 h_S_) main_v3 main_c
  let main_v5 : FVec F S4096x10240x4 .f32 := (extf .f32 · bitsLt_bf16_f32) main_arg1
  let main_v6 : FVec F S4096x10240x4 .f32 := Host.absf main_v5
  let main_cst_0 : FVec F S_ .f32 := constant S_ .f32 0x7F800000#32
  let main_v7 : FVec F S4096x10240x4 .f32 := broadcastInDim S4096x10240x4 ![] bcast_S_S4096x10240x4 main_cst_0
  let main_v8 : IVec S4096x10240x4 1 := cmpf .olt main_v6 main_v7
  let main_c_1 : IVec S_ 1 := constantI S_ 1 1#1
  let main_v9 : IVec S_ 1 := (fun x v => Host.reduce IntOp.andi x v reducesTo_S4096x10240x4_S_d0_1_2 h_S_) main_v8 main_c_1
  let main_v10 : IVec S_ 1 := andi main_v4 main_v9
  let main_v11 : FVec F S10240x4 .f32 := (extf .f32 · bitsLt_bf16_f32) main_arg2
  let main_v12 : FVec F S10240x4 .f32 := Host.absf main_v11
  let main_cst_2 : FVec F S_ .f32 := constant S_ .f32 0x7F800000#32
  let main_v13 : FVec F S10240x4 .f32 := broadcastInDim S10240x4 ![] bcast_S_S10240x4 main_cst_2
  let main_v14 : IVec S10240x4 1 := cmpf .olt main_v12 main_v13
  let main_c_3 : IVec S_ 1 := constantI S_ 1 1#1
  let main_v15 : IVec S_ 1 := (fun x v => Host.reduce IntOp.andi x v reducesTo_S10240x4_S_d0_1 h_S_) main_v14 main_c_3
  let main_v16 : IVec S_ 1 := andi main_v10 main_v15
  main_v16
-- ==== Kernel.lean ====
abbrev S4096x10240 : Shape := ⟨2, ![4096, 10240]⟩
abbrev S4096x10240x4 : Shape := ⟨3, ![4096, 10240, 4]⟩
abbrev S10240x4 : Shape := ⟨2, ![10240, 4]⟩
abbrev S512x2048 : Shape := ⟨2, ![512, 2048]⟩
abbrev S512x2048x4 : Shape := ⟨3, ![512, 2048, 4]⟩
abbrev S2048x4 : Shape := ⟨2, ![2048, 4]⟩
abbrev S512x2048x1 : Shape := ⟨3, ![512, 2048, 1]⟩
abbrev S2048x1 : Shape := ⟨2, ![2048, 1]⟩
abbrev S2048 : Shape := ⟨1, ![2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x10240, .bf16⟩
  | .hbm, ⟨1, _⟩ => ⟨S4096x10240x4, .bf16⟩
  | .hbm, ⟨2, _⟩ => ⟨S10240x4, .bf16⟩
  | .hbm, ⟨3, _⟩ => ⟨S4096x10240, .bf16⟩
  | .local _ .vmem, ⟨0, _⟩ => ⟨S512x2048, .bf16⟩
  | .local _ .vmem, ⟨1, _⟩ => ⟨S512x2048, .bf16⟩
  | .local _ .vmem, ⟨2, _⟩ => ⟨S512x2048x4, .bf16⟩
  | .local _ .vmem, ⟨3, _⟩ => ⟨S512x2048x4, .bf16⟩
  | .local _ .vmem, ⟨4, _⟩ => ⟨S2048x4, .bf16⟩
  | .local _ .vmem, ⟨5, _⟩ => ⟨S2048x4, .bf16⟩
  | .local _ .vmem, ⟨6, _⟩ => ⟨S512x2048, .bf16⟩
  | .local _ .vmem, ⟨7, _⟩ => ⟨S512x2048, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048x4 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x4 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S512x2048x4_S512x2048x4_0_0_0 : ∀ a, (![0, 0, 0] : Fin 3 → Nat) a + S512x2048x4.size a ≤ S512x2048x4.size a
  h_S512x2048x4 : 0 < S512x2048x4.numel
  inb_S2048x4_S2048x4_0_0 : ∀ a, (![0, 0] : Fin 2 → Nat) a + S2048x4.size a ≤ S2048x4.size a
  h_S2048x4 : 0 < S2048x4.numel
  slices_S512x2048x4_o0_0_1_S512x2048x1 : S512x2048x4.Slices ![0, 0, 1] S512x2048x1
  shapeCasts_S512x2048x1_S512x2048 : S512x2048x1.ShapeCasts S512x2048
  slices_S512x2048x4_o0_0_2_S512x2048x1 : S512x2048x4.Slices ![0, 0, 2] S512x2048x1
  slices_S512x2048x4_o0_0_3_S512x2048x1 : S512x2048x4.Slices ![0, 0, 3] S512x2048x1
  slices_S2048x4_o0_0_S2048x1 : S2048x4.Slices ![0, 0] S2048x1
  shapeCasts_S2048x1_S2048 : S2048x1.ShapeCasts S2048
  shapeCasts_S2048_S1x2048 : S2048.ShapeCasts S1x2048
  slices_S2048x4_o0_1_S2048x1 : S2048x4.Slices ![0, 1] S2048x1
  slices_S2048x4_o0_2_S2048x1 : S2048x4.Slices ![0, 2] S2048x1
  slices_S2048x4_o0_3_S2048x1 : S2048x4.Slices ![0, 3] S2048x1
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x10240.size a
  hwx0_0 : ∀ i : grid0.Coords, EltTy.bits .bf16 = 32 ∨ (Rect.block (s := S4096x10240) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048x4.size a ≤ S4096x10240x4.size a
  hwx0_1 : ∀ i : grid0.Coords, EltTy.bits .bf16 = 32 ∨ (Rect.block (s := S4096x10240x4) S512x2048x4.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S10240x4.size a
  hwx0_2 : ∀ i : grid0.Coords, EltTy.bits .bf16 = 32 ∨ (Rect.block (s := S10240x4) S2048x4.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x10240.size a
  hwx0_3 : ∀ i : grid0.Coords, EltTy.bits .bf16 = 32 ∨ (Rect.block (s := S4096x10240) S512x2048.size (cc0_transform_3 i) (hinb0_3 i)).WholeWords (EltTy.packing .bf16)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x10240 : Shape := ⟨2, ![4096, 10240]⟩
abbrev S4096x10240x4 : Shape := ⟨3, ![4096, 10240, 4]⟩
abbrev S10240x4 : Shape := ⟨2, ![10240, 4]⟩
abbrev S4096x10240x3 : Shape := ⟨3, ![4096, 10240, 3]⟩
abbrev S4096x10240x1 : Shape := ⟨3, ![4096, 10240, 1]⟩
abbrev S1x10240x4 : Shape := ⟨3, ![1, 10240, 4]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x10240x4, .bf16⟩
  | .hbm, ⟨2, _⟩ => ⟨S10240x4, .bf16⟩
  | .hbm, ⟨3, _⟩ => ⟨S4096x10240x3, .bf16⟩
  | .hbm, ⟨4, _⟩ => ⟨S4096x10240x1, .bf16⟩
  | .hbm, ⟨5, _⟩ => ⟨S4096x10240x4, .bf16⟩
  | .hbm, ⟨6, _⟩ => ⟨S4096x10240x4, .f32⟩
  | .hbm, ⟨7, _⟩ => ⟨S10240x4, .f32⟩
  | .hbm, ⟨8, _⟩ => ⟨S1x10240x4, .f32⟩
  | .hbm, ⟨9, _⟩ => ⟨S4096x10240x4, .f32⟩
  | .hbm, ⟨10, _⟩ => ⟨S4096x10240x4, .f32⟩
  | .hbm, ⟨11, _⟩ => ⟨S_, .f32⟩
  | .hbm, ⟨12, _⟩ => ⟨S4096x10240, .f32⟩
  | .hbm, ⟨13, _⟩ => ⟨S4096x10240, .f32⟩
  | .hbm, ⟨14, _⟩ => ⟨S4096x10240, .f32⟩
  | .hbm, ⟨15, _⟩ => ⟨S_, .f32⟩
  | .hbm, ⟨16, _⟩ => ⟨S4096x10240, .f32⟩
  | .hbm, ⟨17, _⟩ => ⟨S4096x10240, .f32⟩
  | .hbm, ⟨18, _⟩ => ⟨S_, .f32⟩
  | .hbm, ⟨19, _⟩ => ⟨S4096x10240, .f32⟩
  | .hbm, ⟨20, _⟩ => ⟨S4096x10240, .f32⟩
  | .hbm, ⟨21, _⟩ => ⟨S4096x10240, .f32⟩
  | .hbm, ⟨22, _⟩ => ⟨S4096x10240, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S4096x10240x4_S4096x10240x3_0_0_1 : S4096x10240x4.Slices ![0, 0, 1] S4096x10240x3
  bcast_S4096x10240_S4096x10240x1_0_1 : S4096x10240.BroadcastsInDim S4096x10240x1 (![0, 1] : Fin 2 → Fin S4096x10240x1.rank)
  concatenates_S4096x10240x3_S4096x10240x1_S4096x10240x4_d2 : Shape.Concatenates [S4096x10240x3, S4096x10240x1] S4096x10240x4 2
  bitsLt_bf16_f32 : FTy.bits .bf16 < FTy.bits .f32
  bcast_S10240x4_S1x10240x4_1_2 : S10240x4.BroadcastsInDim S1x10240x4 (![1, 2] : Fin 2 → Fin S1x10240x4.rank)
  bcast_S1x10240x4_S4096x10240x4_0_1_2 : S1x10240x4.BroadcastsInDim S4096x10240x4 (![0, 1, 2] : Fin 3 → Fin S4096x10240x4.rank)
  reducesTo_S4096x10240x4_S4096x10240_d2 : S4096x10240x4.ReducesTo [2] S4096x10240
  h_S_ : 0 < S_.numel
  bcast_S_S4096x10240 : S_.BroadcastsInDim S4096x10240 (![] : Fin 0 → Fin S4096x10240.rank)

variable [Facts₀]

class Facts : Prop extends Facts₀ where

variable [Facts]
-- ==== Proof.ConvStep.lean ====
/-
  One step of a causal depthwise convolution of width four, channel by channel, followed by SiLU.

  The state of channel `d` of row `b` holds the last four inputs, `s b d 0 … s b d 3`, oldest first. A step drops the
  oldest, moves the other three down one place and puts the new input `x b d` last; the shifted state is then dotted
  with the channel's four taps `w d 0 … w d 3`:

      dot b d = s b d 1 · w d 0 + s b d 2 · w d 1 + s b d 3 · w d 2 + x b d · w d 3,

  and the result is `silu (dot b d)`, where `silu a = a · σ(a)` and `σ(a) = 1 / (1 + e^(-a))` is the logistic function.
  Everything is over the extended reals: an entry may be ±∞, products and sums are the extended reals' own, and
  the logistic function takes its limits at the infinities (`σ(-∞) = 0`, `σ(+∞) = 1`). The four terms are added
  from the left; since addition of extended reals is commutative and associative, any other order or grouping of
  the same four terms is the same number, with no condition on the entries.
-/
import Idealize.ShloMosaic.PureOps.Ideal
import Idealize.ShloMosaic.Lib.ValueIdx

noncomputable section

open Idealize.ShloMosaic Idealize.ShloMosaic.ValueIdx

namespace Cert.ConvStep

/-- The new inputs and the results: one entry per row `b < 4096` and channel `d < 10240`. -/
abbrev Rows : Shape := ⟨2, ![4096, 10240]⟩
/-- The states: four entries per row and channel, oldest first. -/
abbrev States : Shape := ⟨3, ![4096, 10240, 4]⟩
/-- The taps: four per channel. -/
abbrev Taps : Shape := ⟨2, ![10240, 4]⟩

/-- The shifted state of row `b`, channel `d` dotted with the channel's taps: places 1, 2, 3 of the old state against
    taps 0, 1, 2, and the new input against tap 3, added from the left. -/
def dot (x : Rows.Idx → EReal) (s : States.Idx → EReal) (w : Taps.Idx → EReal) (b : Fin 4096) (d : Fin 10240) : EReal :=
  s (ix3 b d 1) * w (ix2 d 0) + s (ix3 b d 2) * w (ix2 d 1) + s (ix3 b d 3) * w (ix2 d 2) + x (ix2 b d) * w (ix2 d 3)

/-- `silu a = a · σ(a)`, with `σ` the logistic function on the extended reals. -/
def silu (a : EReal) : EReal := a * Ideal.logistic a

/-- The step's result, entry by entry. -/
def out (x : Rows.Idx → EReal) (s : States.Idx → EReal) (w : Taps.Idx → EReal) : Rows.Idx → EReal :=
  fun i => silu (dot x s w (i 0) (i 1))

/-- The logistic function written out with the quotient of the extended reals, `1 / (1 + e^(-a))`: this is its
    definition. -/
theorem logistic_eq (a : EReal) : Ideal.logistic a = Ideal.div 1 (1 + Ideal.exp (-a)) := rfl

/-- Four terms added from the left after a zero are the four terms added from the left. -/
theorem zero_add_sum4 (f : Fin 4 → EReal) : 0 + ∑ k : Fin 4, f k = f 0 + f 1 + f 2 + f 3 := by
  rw [zero_add, Fin.sum_univ_four]

end Cert.ConvStep

end
-- ==== Proof.KernelBlock.lean ====
/-
  One block of the kernel's output is the same block of the convolution step.

  The kernel works on blocks of 512 rows by 2048 channels. At a block it loads the block `P2` of the new inputs, the
  block `P0` of the states (all four places of each row and channel of the block) and the 2048 channels' taps `P1`,
  and stores, at place `y = (r, l)` of the block, `silu` of

      P0 (r, l, 1) · P1 (l, 0) + P0 (r, l, 2) · P1 (l, 1) + P0 (r, l, 3) · P1 (l, 2) + P2 (r, l) · P1 (l, 3)

  (the change of number format on the way in and out is the identity on the extended reals). So if the three loaded
  blocks are the whole arrays `x`, `s`, `w` read at row `i 0` and channel `i 1` wherever the block is read at `r` and
  `l`, the stored entry is the step's result at `i`.
-/
import proofs.«127182_j2078764171678_1_alg».proof.Proof.Gen.KernelIdeal.Value
import proofs.«127182_j2078764171678_1_alg».proof.Proof.ConvStep

noncomputable section

open Idealize.ShloMosaic Idealize.ShloMosaic.TcCoe Idealize.ShloMosaic.ValueIdx

namespace Cert.KernelIdeal.Block

open Cert.KernelIdeal Cert.KernelIdeal.Gen Cert.KernelIdeal.Value Cert.ConvStep

/-- The entry the body leaves at place `y` of the output block, from loaded blocks that agree with the arrays `x`,
    `s`, `w` at row `i 0` and channel `i 1` wherever they are read at `y`'s row and channel, is the step's result at `i`. -/
theorem entry_eq (x : Vec Ideal S4096x10240 .bf16) (s : Vec Ideal S4096x10240x4 .bf16) (w : Vec Ideal S10240x4 .bf16)
    (P0 : Vec Ideal S512x2048x4 .bf16) (P1 : Vec Ideal S2048x4 .bf16) (P2 : Vec Ideal S512x2048 .bf16)
    (y : S512x2048.Idx) (i : S4096x10240.Idx)
    (hs : ∀ (z : S512x2048x4.Idx) (k : Fin 4), (z 0).val = (y 0).val → (z 1).val = (y 1).val → (z 2).val = k.val →
      P0 z = s (ix3 (i 0) (i 1) k))
    (hw : ∀ (z : S2048x4.Idx) (k : Fin 4), (z 0).val = (y 1).val → (z 1).val = k.val → P1 z = w (ix2 (i 1) k))
    (hx : ∀ z : S512x2048.Idx, (z 0).val = (y 0).val → (z 1).val = (y 1).val → P2 z = x (ix2 (i 0) (i 1))) :
    E3 (F := Ideal) P0 P1 P2 y = out x s w i := by
  have a0 := hs (ix3_0 y) 1 rfl rfl rfl
  have a1 := hw (ix3_1 y) 0 rfl rfl
  have a2 := hs (ix3_2 y) 2 rfl rfl rfl
  have a3 := hw (ix3_3 y) 1 rfl rfl
  have a4 := hs (ix3_4 y) 3 rfl rfl rfl
  have a5 := hw (ix3_5 y) 2 rfl rfl
  have a6 := hx (ix3_6 y) rfl rfl
  have a7 := hw (ix3_7 y) 3 rfl rfl
  dsimp only [E3]
  rw [a0, a1, a2, a3, a4, a5, a6, a7]
  rfl

/-- The body loads each block whole: a rectangle of zero offsets and the block's own extents. -/
theorem offsets2 : (![0, 0] : Fin 2 → Nat) = fun _ => 0 := funext fun a => by fin_cases a <;> rfl
theorem offsets3 : (![0, 0, 0] : Fin 3 → Nat) = fun _ => 0 := funext fun a => by fin_cases a <;> rfl

/-- What the body leaves in the output's buffer from the three loaded blocks (its one store, over the whole buffer),
    at place `y`: the entry above. -/
theorem stored_eq (x : Vec Ideal S4096x10240 .bf16) (s : Vec Ideal S4096x10240x4 .bf16) (w : Vec Ideal S10240x4 .bf16)
    (P0 : Vec Ideal S512x2048x4 .bf16) (P1 : Vec Ideal S2048x4 .bf16) (P2 : Vec Ideal S512x2048 .bf16)
    (y : S512x2048.Idx) (i : S4096x10240.Idx)
    (hs : ∀ (z : S512x2048x4.Idx) (k : Fin 4), (z 0).val = (y 0).val → (z 1).val = (y 1).val → (z 2).val = k.val →
      P0 z = s (ix3 (i 0) (i 1) k))
    (hw : ∀ (z : S2048x4.Idx) (k : Fin 4), (z 0).val = (y 1).val → (z 1).val = k.val → P1 z = w (ix2 (i 1) k))
    (hx : ∀ z : S512x2048.Idx, (z 0).val = (y 0).val → (z 1).val = (y 1).val → P2 z = x (ix2 (i 0) (i 1))) :
    out0_3 (F := Ideal) P2 P0 P1 y = out x s w i := by
  unfold out0_3
  rw [View.ld_unit_zero (S := S512x2048) offsets2, View.ld_unit_zero (S := S512x2048x4) offsets3,
    View.ld_unit_zero (S := S2048x4) offsets2]
  exact (canon3_eq P0 P1 P2 y).trans (entry_eq x s w P0 P1 P2 y i hs hw hx)

end Cert.KernelIdeal.Block

end
-- ==== Proof.KernelArray.lean ====
/-
  From blocks to the whole array: the kernel's result array is the convolution step of its argument arrays.

  The grid has 8 × 5 points. At point `t = (p, q)` the output's block is rows `512 p … 512 p + 511`, channels
  `2048 q … 2048 q + 2047` of the result; the new inputs' block is the same rows and channels, the states' block the same
  rows and channels with all four places, and the taps' block the same channels with all four taps. So place `(r, l)` of
  each block is row `512 p + r`, channel `2048 q + l` of its array, the entry the body stores there is the step's
  result at that row and channel, and what the point writes back is the result's block. Every row `b` and channel
  `d` lies in the block of the point `(b / 512, d / 2048)`, so the blocks cover the array, and the array ends holding
  the step's result everywhere.
-/
import proofs.«127182_j2078764171678_1_alg».proof.Proof.Gen.KernelIdeal.Value
import proofs.«127182_j2078764171678_1_alg».proof.Proof.KernelBlock
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Value Cert.ConvStep

variable (m : (ℓ : Loc nD τ sig) → Buf (Elt Ideal) ℓ) (ρ : Dev nD → PrngReg)

/-- How the four windows' block numbers are related at every grid point, decided over the 40 points: the inputs', the
    states' and the output's blocks have the same row and channel numbers, the taps' block the output's channel
    number, the last axis of the states and of the taps is one block, and the numbers stay below 8 and 5. -/
theorem block_numbers : ∀ t : Fin cfg0.N,
    win0_0.index t (0 : Fin 2) = win0_3.index t (0 : Fin 2) ∧ win0_0.index t (1 : Fin 2) = win0_3.index t (1 : Fin 2)
    ∧ win0_1.index t (0 : Fin 3) = win0_3.index t (0 : Fin 2) ∧ win0_1.index t (1 : Fin 3) = win0_3.index t (1 : Fin 2)
    ∧ win0_1.index t (2 : Fin 3) = 0
    ∧ win0_2.index t (0 : Fin 2) = win0_3.index t (1 : Fin 2) ∧ win0_2.index t (1 : Fin 2) = 0
    ∧ win0_3.index t (0 : Fin 2) ≤ 7 ∧ win0_3.index t (1 : Fin 2) ≤ 4 :=
  (by decide +kernel : ∀ t : Fin grid0.N, _)

/-- Every pair of a row-block number below 8 and a channel-block number below 5 is some point's. -/
theorem block_numbers_onto : ∀ (p : Fin 8) (q : Fin 5), ∃ t : Fin cfg0.N, win0_3.index t = ![p.val, q.val] :=
  (by decide +kernel : ∀ (p : Fin 8) (q : Fin 5), ∃ t : Fin grid0.N, win0_3.index t = ![p.val, q.val])

/-- What point `t` writes back is block `t` of the step's result of the argument arrays. -/
theorem written_eq (c : Dev nD) (t : Fin cfg0.N) :
    (dats m 0 c).flushed 3 t
      = ((cfg0.win 3).blk t).view.read (Elt Ideal) (out (V m c main_arg0) (V m c main_arg1) (V m c main_arg2)) := by
  rw [Value.flushed3]
  obtain ⟨e0, e1, e2, e3, e4, e5, e6, e7, e8⟩ := block_numbers t
  funext j
  have hj0 : (j 0).val < 512 := (j 0).isLt
  have hj1 : (j 1).val < 2048 := (j 1).isLt
  show out0_3 (iblk m c 0 t) (iblk m c 1 t) (iblk m c 2 t) j
    = out (V m c main_arg0) (V m c main_arg1) (V m c main_arg2) (((cfg0.win 3).blk t).view.emb j)
  refine Block.stored_eq (V m c main_arg0) (V m c main_arg1) (V m c main_arg2) (iblk m c 1 t) (iblk m c 2 t)
    (iblk m c 0 t) j (((cfg0.win 3).blk t).view.emb j) ?_ ?_ ?_
  · intro z k h0 h1 h2
    show V m c main_arg1 (((cfg0.win 1).blk t).view.emb z) = V m c main_arg1 _
    refine congrArg (V m c main_arg1) (funext fun a => Fin.ext ?_)
    match a with
    | ⟨0, _⟩ =>
      show win0_1.index t (0 : Fin 3) * 512 + 1 * (z 0).val = win0_3.index t (0 : Fin 2) * 512 + 1 * (j 0).val
      omega
    | ⟨1, _⟩ =>
      show win0_1.index t (1 : Fin 3) * 2048 + 1 * (z 1).val = win0_3.index t (1 : Fin 2) * 2048 + 1 * (j 1).val
      omega
    | ⟨2, _⟩ =>
      show win0_1.index t (2 : Fin 3) * 4 + 1 * (z 2).val = k.val
      omega
  · intro z k h0 h1
    show V m c main_arg2 (((cfg0.win 2).blk t).view.emb z) = V m c main_arg2 _
    refine congrArg (V m c main_arg2) (funext fun a => Fin.ext ?_)
    match a with
    | ⟨0, _⟩ =>
      show win0_2.index t (0 : Fin 2) * 2048 + 1 * (z 0).val = win0_3.index t (1 : Fin 2) * 2048 + 1 * (j 1).val
      omega
    | ⟨1, _⟩ =>
      show win0_2.index t (1 : Fin 2) * 4 + 1 * (z 1).val = k.val
      omega
  · intro z h0 h1
    show V m c main_arg0 (((cfg0.win 0).blk t).view.emb z) = V m c main_arg0 _
    refine congrArg (V m c main_arg0) (funext fun a => Fin.ext ?_)
    match a with
    | ⟨0, _⟩ =>
      show win0_0.index t (0 : Fin 2) * 512 + 1 * (z 0).val = win0_3.index t (0 : Fin 2) * 512 + 1 * (j 0).val
      omega
    | ⟨1, _⟩ =>
      show win0_0.index t (1 : Fin 2) * 2048 + 1 * (z 1).val = win0_3.index t (1 : Fin 2) * 2048 + 1 * (j 1).val
      omega

/-- A row and channel of the result is in point `t`'s block iff each lies in the block's range on its axis. -/
theorem mem_block (t : Fin cfg0.N) (i : S4096x10240.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- Every row `b` and channel `d` is in the block of the point numbered `(b / 512, d / 2048)`, which writes back. -/
theorem covered (i : S4096x10240.Idx) :
    ∃ t : Fin cfg0.N, (cfg0.win 3).flush t = true ∧ i ∈ ((cfg0.win 3).blk t).view.set := by
  have hi0 : (i 0).val < 4096 := (i 0).isLt
  have hi1 : (i 1).val < 10240 := (i 1).isLt
  obtain ⟨t, ht⟩ := block_numbers_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- The result array after the run is the step's result of the argument arrays as launched. -/
theorem result_array (c : Dev nD) :
    (dats m 0 c).arrAt 3 cfg0.N
      = out (m ((c : Thread nD τ).loc main_arg0)) (m ((c : Thread nD τ).loc main_arg1)) (m ((c : Thread nD τ).loc main_arg2)) :=
  (dats m 0 c).arrAt_eq_of_cover 3 (out (V m c main_arg0) (V m c main_arg1) (V m c main_arg2))
    (fun t _ => written_eq m c t) covered

/-- The kernel's run: every weakly fair execution ends, without a fault, with the result array at the step's result
    of the argument arrays and the argument arrays unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.Whole

end
-- ==== Proof.ReferenceStep.lean ====
/-
  The reference computes the convolution step.

  The reference builds the shifted state as an array: places 1, 2, 3 of the old state joined, along the last axis,
  with the new input as a fourth place. At place `k < 3` the joined array is therefore the old state at place
  `k + 1`, and at place 3 it is the new input. It multiplies the shifted state by the taps (repeated over the rows),
  adds the four products of each row and channel onto a zero, and multiplies the sum `a` by `1 / (1 + e^(-a))`, which
  is the logistic function of `a` by definition. The changes of number format are the identity on the extended reals.
-/
import proofs.«127182_j2078764171678_1_alg».proof.Proof.Gen.ReferenceIdeal.Read
import proofs.«127182_j2078764171678_1_alg».proof.Proof.ConvStep
import Idealize.ShloMosaic.Lib.Pipeline.Value
import Idealize.ShloMosaic.Lib.IdealHost

noncomputable section

open Idealize.ShloMosaic Idealize.ShloMosaic.TcCoe Idealize.ShloMosaic.ValueIdx

namespace Cert.ReferenceIdeal.Step

open Cert.ReferenceIdeal Cert.ReferenceIdeal.Gen Cert.ReferenceIdeal.Read Cert.ConvStep

variable (x0 : (⟨S4096x10240, .bf16⟩ : BufTy).Contents (Elt Ideal)) (x1 : (⟨S4096x10240x4, .bf16⟩ : BufTy).Contents (Elt Ideal))
  (x2 : (⟨S10240x4, .bf16⟩ : BufTy).Contents (Elt Ideal))

/-- At a place `k` below 3 the shifted state is the old state one place later. -/
theorem shifted_old (i : S4096x10240.Idx) (k k' : Fin 4) (hk : k.val < 3) (hk' : k'.val = 1 + k.val) :
    val_main_v2 (F := Ideal) x0 x1 (idx_main_v8 i k) = x1 (ix3 (i 0) (i 1) k') := by
  unfold val_main_v2
  refine (concatenate_pair_apply_left (t := S4096x10240x4) (s₁ := S4096x10240x3) (s₂ := S4096x10240x1) _ _ _ _
    (idx_main_v8 i k) rfl (fun a => match a with | ⟨0, _⟩ => i 0 | ⟨1, _⟩ => i 1 | ⟨2, _⟩ => ⟨k.val, hk⟩) ?_).trans ?_
  · intro b
    match b with
    | ⟨0, _⟩ => rfl
    | ⟨1, _⟩ => rfl
    | ⟨2, _⟩ => rfl
  · rw [val_main_v0_apply]
    refine congrArg x1 (funext fun a => Fin.ext ?_)
    match a with
    | ⟨0, _⟩ => rfl
    | ⟨1, _⟩ => rfl
    | ⟨2, _⟩ => exact hk'.symm

/-- At place 3 the shifted state is the new input. -/
theorem shifted_new (i : S4096x10240.Idx) :
    val_main_v2 (F := Ideal) x0 x1 (idx_main_v8 i 3) = x0 (ix2 (i 0) (i 1)) := by
  unfold val_main_v2
  refine (concatenate_pair_apply_right (t := S4096x10240x4) (s₁ := S4096x10240x3) (s₂ := S4096x10240x1) _ _ _ _
    (idx_main_v8 i 3) rfl rfl (fun a => match a with | ⟨0, _⟩ => i 0 | ⟨1, _⟩ => i 1 | ⟨2, _⟩ => ⟨0, Nat.one_pos⟩) ?_ ?_).trans ?_
  · intro b hb
    match b with
    | ⟨0, _⟩ => rfl
    | ⟨1, _⟩ => rfl
    | ⟨2, _⟩ => exact absurd rfl hb
  · rfl
  · rw [val_main_v1_apply]
    refine congrArg x0 (funext fun a => Fin.ext ?_)
    match a with
    | ⟨0, _⟩ => rfl
    | ⟨1, _⟩ => rfl

/-- One product of the sum: the shifted state at place `k` times the channel's tap `k`. -/
theorem term_eq (i : S4096x10240.Idx) (k : Fin 4) :
    val_main_v7 (F := Ideal) x0 x1 x2 (idx_main_v8 i k)
      = val_main_v2 (F := Ideal) x0 x1 (idx_main_v8 i k) * x2 (ix2 (i 1) k) := by
  rw [val_main_v7_apply, val_main_v3_apply, val_main_v6_apply, val_main_v5_apply, val_main_v4_apply]
  have e : idx_main_v5 (idx_main_v6 (idx_main_v8 i k)) = ix2 (i 1) k :=
    funext fun a => Fin.ext (by match a with | ⟨0, _⟩ => rfl | ⟨1, _⟩ => rfl)
  rw [e]
  rfl

/-- The sum of the four products onto zero is the shifted state dotted with the taps. -/
theorem sum_eq (i : S4096x10240.Idx) : val_main_v8 (F := Ideal) x0 x1 x2 i = dot x0 x1 x2 (i 0) (i 1) := by
  rw [val_main_v8_apply, val_main_cst_apply, Ideal.ofBits_def, Ideal.ofBits_zero_f32, zero_add_sum4,
    term_eq, term_eq, term_eq, term_eq,
    shifted_old x0 x1 i 0 1 (by decide) (by decide), shifted_old x0 x1 i 1 2 (by decide) (by decide),
    shifted_old x0 x1 i 2 3 (by decide) (by decide), shifted_new]
  rfl

/-- The reference's result is the step's result. -/
theorem result_eq : val_main_v16 (F := Ideal) x0 x1 x2 = out x0 x1 x2 := by
  funext i
  rw [val_main_v16_apply, val_main_v15_apply, val_main_v14_apply, val_main_v13_apply, val_main_cst_1_apply,
    val_main_v12_apply, val_main_v11_apply, val_main_cst_0_apply, val_main_v10_apply, val_main_v9_apply, sum_eq,
    Ideal.ofBits_def, Ideal.ofBits_one_f32]
  rfl

end Cert.ReferenceIdeal.Step

end
-- ==== Proof.lean ====
/-
  The kernel — one step of a causal depthwise convolution of width four with SiLU, computed block by block over an
  8 × 5 grid of 512 rows by 2048 channels — against its reference, which builds the shifted state as an array, sums
  its products with the taps along the last axis and applies `a · 1 / (1 + e^(-a))`.

  Over the extended reals both programs end with the result array at ONE function of the argument arrays,
  `ConvStep.out`: entry `(b, d)` is `silu` of `s b d 1 · w d 0 + s b d 2 · w d 1 + s b d 3 · w d 2 + x b d · w d 3`.
  The kernel side is block by block (Proof/KernelBlock.lean: one entry of a block; Proof/KernelArray.lean: the blocks
  cover the array); the reference side is operation by operation (Proof/ReferenceStep.lean). The two sums have the same
  four terms in the same order, the reference's onto a zero, and the logistic function is its quotient form by
  definition, so no condition on the entries is used: the entries may be infinite.

  The three frames are the generated runs; the idealized kernel is the kernel's own text read over the extended
  reals (no operation was rewritten), so there is nothing to preserve.
-/
import proofs.«127182_j2078764171678_1_alg».proof.Defs
import proofs.«127182_j2078764171678_1_alg».proof.Proof.Gen.Kernel
import proofs.«127182_j2078764171678_1_alg».proof.Proof.Gen.Kernel.Skeleton
import proofs.«127182_j2078764171678_1_alg».proof.Proof.Gen.Kernel.Launch
import proofs.«127182_j2078764171678_1_alg».proof.Proof.Gen.Kernel.Points
import proofs.«127182_j2078764171678_1_alg».proof.Proof.Gen.Kernel.Frame
import proofs.«127182_j2078764171678_1_alg».proof.Proof.Gen.KernelIdeal
import proofs.«127182_j2078764171678_1_alg».proof.Proof.Gen.KernelIdeal.Skeleton
import proofs.«127182_j2078764171678_1_alg».proof.Proof.Gen.KernelIdeal.Launch
import proofs.«127182_j2078764171678_1_alg».proof.Proof.Gen.KernelIdeal.Points
import proofs.«127182_j2078764171678_1_alg».proof.Proof.Gen.KernelIdeal.Frame
import proofs.«127182_j2078764171678_1_alg».proof.Proof.Gen.ReferenceIdeal
import proofs.«127182_j2078764171678_1_alg».proof.Proof.Gen.KernelIdeal.Value
import proofs.«127182_j2078764171678_1_alg».proof.Proof.Gen.ReferenceIdeal.Run
import proofs.«127182_j2078764171678_1_alg».proof.Proof.Gen.ReferenceIdeal.Read
import proofs.«127182_j2078764171678_1_alg».proof.Proof.Gen.Pre_finite_inputs
import proofs.«127182_j2078764171678_1_alg».proof.Proof.ConvStep
import proofs.«127182_j2078764171678_1_alg».proof.Proof.KernelBlock
import proofs.«127182_j2078764171678_1_alg».proof.Proof.KernelArray
import proofs.«127182_j2078764171678_1_alg».proof.Proof.ReferenceStep
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference has no kernel: its frame is its run with the result dropped. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- From memories that agree on the three arguments both programs end with the result array at the convolution step
    of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Step.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
